-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x80 : Shape := ⟨2, ![4096, 80]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x80 : S_.BroadcastsInDim S4096x80 (![] : Fin 0 → Fin S4096x80.rank)
  reducesTo_S4096x80_S_d0_1 : S4096x80.ReducesTo [0, 1] S_

variable [Facts]

def fn_part1 {F : FTy → Type} [FloatOps F] (main_v13 : IVec S_ 1) (main_v16 : IVec S4096x80 1) : IVec S_ 1 :=
  let main_c_5 : IVec S_ 1 := constantI S_ 1 1#1
  let main_v17 : IVec S_ 1 := (fun x v => Host.reduce IntOp.andi x v reducesTo_S4096x80_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x80 .f32) (main_arg3 : FVec F S4096x80 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x80 .f32 := Host.absf main_arg2
  let main_cst_2 : FVec F S_ .f32 := constant S_ .f32 0x7F800000#32
  let main_v10 : FVec F S4096x80 .f32 := broadcastInDim S4096x80 ![] bcast_S_S4096x80 main_cst_2
  let main_v11 : IVec S4096x80 1 := cmpf .olt main_v9 main_v10
  let main_c_3 : IVec S_ 1 := constantI S_ 1 1#1
  let main_v12 : IVec S_ 1 := (fun x v => Host.reduce IntOp.andi x v reducesTo_S4096x80_S_d0_1 h_S_) main_v11 main_c_3
  let main_v13 : IVec S_ 1 := andi main_v8 main_v12
  let main_v14 : FVec F S4096x80 .f32 := Host.absf main_arg3
  let main_cst_4 : FVec F S_ .f32 := constant S_ .f32 0x7F800000#32
  let main_v15 : FVec F S4096x80 .f32 := broadcastInDim S4096x80 ![] bcast_S_S4096x80 main_cst_4
  let main_v16 : IVec S4096x80 1 := cmpf .olt main_v14 main_v15
  fn_part1 (F := F) main_v13 main_v16
-- ==== Kernel.lean ====
abbrev S4096x1024 : Shape := ⟨2, ![4096, 1024]⟩
abbrev S4096x80 : Shape := ⟨2, ![4096, 80]⟩
abbrev S128x2048 : Shape := ⟨2, ![128, 2048]⟩
abbrev S256x1024 : Shape := ⟨2, ![256, 1024]⟩
abbrev S256x80 : Shape := ⟨2, ![256, 80]⟩
abbrev S8x128 : Shape := ⟨2, ![8, 128]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S80x256 : Shape := ⟨2, ![80, 256]⟩
abbrev S1x256 : Shape := ⟨2, ![1, 256]⟩
abbrev S1x256x256 : Shape := ⟨3, ![1, 256, 256]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x80, .f32⟩
  | .hbm, ⟨3, _⟩ => ⟨S4096x80, .f32⟩
  | .hbm, ⟨4, _⟩ => ⟨S128x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x80, .f32⟩
  | .local _ .vmem, ⟨5, _⟩ => ⟨S256x80, .f32⟩
  | .local _ .vmem, ⟨6, _⟩ => ⟨S256x80, .f32⟩
  | .local _ .vmem, ⟨7, _⟩ => ⟨S256x80, .f32⟩
  | .local _ .vmem, ⟨8, _⟩ => ⟨S8x128, .f32⟩
  | .local _ .vmem, ⟨9, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S256x1024_S256x1024_0_0 : ∀ a, (![0, 0] : Fin 2 → Nat) a + S256x1024.size a ≤ S256x1024.size a
  h_S256x1024 : 0 < S256x1024.numel
  inb_S256x80_S256x80_0_0 : ∀ a, (![0, 0] : Fin 2 → Nat) a + S256x80.size a ≤ S256x80.size a
  h_S256x80 : 0 < S256x80.numel
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  transposes_S256x1024_p1_0_S1024x256 : S256x1024.Transposes [1, 0] S1024x256
  transposes_S256x80_p1_0_S80x256 : S256x80.Transposes [1, 0] S80x256
  reduces_S256x80_S256 : S256x80.Reduces [1] S256
  transposes_S256x1_p1_0_S1x256 : S256x1.Transposes [1, 0] S1x256
  broadcasts_S256x1_S256x256 : S256x1.Broadcasts S256x256
  broadcasts_S1x256_S256x256 : S1x256.Broadcasts S256x256
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S128x2048_S_d0_1 : S128x2048.ReducesTo [0, 1] S_
  h_S_ : 0 < S_.numel
  dot_S256x1024_S1024x256_S256x256_1_0_0_1_n_n_wf : DotDims.WF S256x1024 S1024x256 S256x256 [1] [0] [0] [1] [] []
  dot_S256x80_S80x256_S256x256_1_0_0_1_n_n_wf : DotDims.WF S256x80 S80x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x80.size a ≤ S4096x80.size a
  hwx0_2 : ∀ i : grid0.Coords, EltTy.bits .f32 = 32 ∨ (Rect.block (s := S4096x80) S256x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x80.size a ≤ S4096x80.size a
  hwx0_3 : ∀ i : grid0.Coords, EltTy.bits .f32 = 32 ∨ (Rect.block (s := S4096x80) S256x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x2048.size a
  hwx0_4 : ∀ i : grid0.Coords, EltTy.bits .f32 = 32 ∨ (Rect.block (s := S128x2048) S8x128.size (cc0_transform_4 i) (hinb0_4 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x80_S80x256_S256x256_1_0_0_1_n_n : DotDims S256x80 S80x256 S256x256 where
  lhsContracting := [1]
  rhsContracting := [0]
  lhsNonContracting := [0]
  rhsNonContracting := [1]
  lhsBatch := []
  rhsBatch := []
  wf := dot_S256x80_S80x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x80 : Shape := ⟨2, ![4096, 80]⟩
abbrev S80x4096 : Shape := ⟨2, ![80, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x4096 : Shape := ⟨2, ![1024, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x80, .f32⟩
  | .hbm, ⟨3, _⟩ => ⟨S4096x80, .f32⟩
  | .hbm, ⟨4, _⟩ => ⟨S80x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1024x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  transposes_S4096x80_S80x4096_1_0 : S4096x80.Transposes [1, 0] S80x4096
  reducesTo_S4096x80_S4096_d1 : S4096x80.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x1024_S4096_d1 : S4096x1024.ReducesTo [1] S4096
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  reducesTo_S4096x4096_S_d0_1 : S4096x4096.ReducesTo [0, 1] S_
  dot_S4096x80_S80x4096_S4096x4096_1_0_0_1_n_n_wf : DotDims.WF S4096x80 S80x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x80_S80x4096_S4096x4096_1_0_0_1_n_n : DotDims S4096x80 S80x4096 S4096x4096 where
  lhsContracting := [1]
  rhsContracting := [0]
  lhsNonContracting := [0]
  rhsNonContracting := [1]
  lhsBatch := []
  rhsBatch := []
  wf := dot_S4096x80_S80x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Loss.lean ====
/-
  The loss this kernel computes, as mathematics over the extended reals.

  For a feature row `f` and a companion feature row `g` (1024 entries each), the cosine similarity of the rows with
  their Euclidean norms clamped below by a small constant; for a label row `l` and a companion label row `cl`
  (80 entries each), the Dice-style overlap `2 ⟨l, cl⟩ / (Σ l + Σ cl + ε)`; the binary cross entropy of the logistic of
  the similarity against that overlap. The loss is the mean of this entry over all 4096 × 4096 pairs of rows.

  The same total is reached tile by tile: the 4096 × 4096 pairs fall into 16 × 16 tiles of 256 × 256 pairs, each tile's
  sum is laid at the corner of an 8 × 128 cell of a 128 × 2048 array whose other positions hold zero, and that array is
  summed. Only commutativity and associativity of the sum are used, so all of this holds with infinite entries too.
-/
import Idealize.ShloMosaic.PureOps.Ideal.Laws
import Idealize.ShloMosaic.Lib.ValueIdx
import Idealize.ShloMosaic.Lib.IdealHost
import proofs.«145367_j7095285973555_1_alg».proof.Proof.LibSumChunks

noncomputable section

open scoped BigOperators

namespace Cert.SoftLoss

open Idealize.ShloMosaic Idealize.ShloMosaic.ValueIdx

/-- The small constant added to denominators and to the arguments of the logarithms, and clamping the norms. -/
abbrev eps : EReal := Ideal.ofBits .f32 0x322BCC77#32
/-- The factor of the overlap's numerator. -/
abbrev two : EReal := Ideal.ofBits .f32 0x40000000#32
/-- The number of pairs, 4096 · 4096. -/
abbrev cnt : EReal := Ideal.ofBits .f32 0x4B800000#32

/-- The Euclidean norm of a row, clamped below. -/
def nrm (x : Fin 1024 → EReal) : EReal := max (Ideal.sqrt (∑ k, x k * x k)) eps

/-- The cosine similarity of two rows: the inner product of the rows divided by their clamped norms. -/
def cosv (f g : Fin 1024 → EReal) : EReal := ∑ k, Ideal.div (f k) (nrm f) * Ideal.div (g k) (nrm g)

/-- The overlap of two label rows. -/
def soft (l cl : Fin 80 → EReal) : EReal := Ideal.div (two * ∑ c, l c * cl c) (((∑ c, l c) + ∑ c, cl c) + eps)

/-- The cross entropy of the logistic of `t` against the target `p`. -/
def bce (t p : EReal) : EReal :=
  -(p * Ideal.log (Ideal.logistic (Ideal.div t 1) + eps) + (1 - p) * Ideal.log ((1 - Ideal.logistic (Ideal.div t 1)) + eps))

/-- Row `r` of a matrix. -/
abbrev row {a b : ℕ} (X : (⟨2, ![a, b]⟩ : Shape).Idx → EReal) (r : Fin a) : Fin b → EReal := fun k => X (ix2 r k)

/-- The loss entry of the pair (row `R`, companion row `S`). -/
def lossAt (F0 F1 : (⟨2, ![4096, 1024]⟩ : Shape).Idx → EReal) (L0 L1 : (⟨2, ![4096, 80]⟩ : Shape).Idx → EReal)
    (R S : Fin 4096) : EReal :=
  bce (cosv (row F0 R) (row F1 S)) (soft (row L0 R) (row L1 S))

/-- The mean of the entries over all pairs. -/
def mean (F0 F1 : (⟨2, ![4096, 1024]⟩ : Shape).Idx → EReal) (L0 L1 : (⟨2, ![4096, 80]⟩ : Shape).Idx → EReal) : EReal :=
  Ideal.div (∑ R : Fin 4096, ∑ S : Fin 4096, lossAt F0 F1 L0 L1 R S) cnt

/-! ## Tiles -/

/-- Row `r` of tile `i` is row `r + 256 i` of the matrix. -/
def tileRow (i : Fin 16) (r : Fin 256) : Fin 4096 := ⟨r.val + 256 * i.val, by have := r.isLt; have := i.isLt; omega⟩

/-- The sum of the entries of tile `(i, j)`. -/
def tile {M : Type*} [AddCommMonoid M] (g : Fin 4096 → Fin 4096 → M) (i j : Fin 16) : M :=
  ∑ r : Fin 256, ∑ s : Fin 256, g (tileRow i r) (tileRow j s)

/-- The tiles' sums add up to the sum over all pairs. -/
theorem sum_tile {M : Type*} [AddCommMonoid M] (g : Fin 4096 → Fin 4096 → M) :
    ∑ i : Fin 16, ∑ j : Fin 16, tile g i j = ∑ R : Fin 4096, ∑ S : Fin 4096, g R S := by
  refine Eq.symm ((Cert.Lib.SumChunks.sum_chunks 16 256 rfl fun R => ∑ S, g R S).trans ?_)
  refine Finset.sum_congr rfl fun i _ => ?_
  unfold tile
  refine Eq.trans ?_ (Finset.sum_comm (s := (Finset.univ : Finset (Fin 256))) (t := (Finset.univ : Finset (Fin 16)))
    (f := fun r j => ∑ s : Fin 256, g (tileRow i r) (tileRow j s)))
  refine Finset.sum_congr rfl fun r _ => ?_
  exact Cert.Lib.SumChunks.sum_chunks 16 256 rfl fun S => g (tileRow i r) S

/-! ## A sparse array of tile sums -/

/-- Of `a · p` consecutive positions, those divisible by `p` carry the `a` values of `g` in order and the others
    zero: the sum over all positions is the sum of `g`. -/
theorem sum_sparse {M : Type*} [AddCommMonoid M] {n : ℕ} (a p : ℕ) (hp : 0 < p) (h : a * p = n) (g : Fin a → M) :
    ∑ A : Fin n, (if A.val % p = 0 then g ⟨A.val / p, (Nat.div_lt_iff_lt_mul hp).2 (by rw [h]; exact A.isLt)⟩ else 0)
      = ∑ i : Fin a, g i := by
  subst h
  rw [Cert.Lib.SumChunks.sum_chunks a p rfl]
  refine Finset.sum_congr rfl fun i _ => ?_
  rw [Finset.sum_eq_single (⟨0, hp⟩ : Fin p)]
  · have h0 : (0 + p * i.val) % p = 0 := by rw [Nat.zero_add, Nat.mul_mod_right]
    refine (if_pos h0).trans ?_
    exact congrArg g (Fin.ext (by show (0 + p * i.val) / p = i.val; rw [Nat.zero_add, Nat.mul_div_cancel_left _ hp]))
  · intro j _ hj
    have hne : ¬ (j.val + p * i.val) % p = 0 := by
      rw [Nat.add_mul_mod_self_left, Nat.mod_eq_of_lt j.isLt]
      exact fun e => hj (Fin.ext e)
    exact if_neg hne
  · intro hx; exact absurd (Finset.mem_univ _) hx

/-- The 128 × 2048 array that holds the sum of tile `(i, j)` at position `(8 i, 128 j)` and zero elsewhere. -/
def outAt (T : Fin 16 → Fin 16 → EReal) (A : Fin 128) (B : Fin 2048) : EReal :=
  if A.val % 8 = 0 then
    (if B.val % 128 = 0 then
      T ⟨A.val / 8, (Nat.div_lt_iff_lt_mul (by norm_num)).2 (by have := A.isLt; omega)⟩
        ⟨B.val / 128, (Nat.div_lt_iff_lt_mul (by norm_num)).2 (by have := B.isLt; omega)⟩
    else 0)
  else 0

/-- Its sum is the sum of the tiles' sums. -/
theorem sum_outAt (T : Fin 16 → Fin 16 → EReal) :
    ∑ A : Fin 128, ∑ B : Fin 2048, outAt T A B = ∑ i : Fin 16, ∑ j : Fin 16, T i j := by
  have inner : ∀ A : Fin 128, ∑ B : Fin 2048, outAt T A B
      = if A.val % 8 = 0 then ∑ j : Fin 16, T ⟨A.val / 8, (Nat.div_lt_iff_lt_mul (by norm_num)).2 (by have := A.isLt; omega)⟩ j else 0 := by
    intro A
    unfold outAt
    split
    · exact sum_sparse 16 128 (by norm_num) rfl fun j => T ⟨A.val / 8, (Nat.div_lt_iff_lt_mul (by norm_num)).2 (by have := A.isLt; omega)⟩ j
    · exact Finset.sum_const_zero
  rw [Finset.sum_congr rfl fun A _ => inner A]
  exact sum_sparse 16 8 (by norm_num) rfl fun i => ∑ j : Fin 16, T i j

/-- Position `(8 i + a, 128 j + b)` of that array, for `a < 8` and `b < 128`: the sum of tile `(i, j)` at the corner
    `a = b = 0` of the cell, zero elsewhere in it. -/
theorem outAt_cell (T : Fin 16 → Fin 16 → EReal) (i j : Fin 16) (a : Fin 8) (b : Fin 128) (A : Fin 128) (B : Fin 2048)
    (hA : A.val = i.val * 8 + 1 * a.val) (hB : B.val = j.val * 128 + 1 * b.val) :
    outAt T A B = if a.val = 0 ∧ b.val = 0 then T i j else 0 := by
  have ha8 := a.isLt
  have hb128 := b.isLt
  have hA8 : A.val % 8 = a.val := by omega
  have hB128 : B.val % 128 = b.val := by omega
  have hAi : A.val / 8 = i.val := by omega
  have hBj : B.val / 128 = j.val := by omega
  unfold outAt
  by_cases ha : a.val = 0
  · by_cases hb : b.val = 0
    · rw [if_pos (by omega), if_pos (by omega), if_pos ⟨ha, hb⟩]
      exact congrArg₂ T (Fin.ext hAi) (Fin.ext hBj)
    · rw [if_pos (by omega), if_neg (by omega), if_neg (fun h => hb h.2)]
  · rw [if_neg (by omega), if_neg (fun h => ha h.1)]

end Cert.SoftLoss

end
-- ==== Proof.RefMean.lean ====
/-
  The reference computes the mean loss.

  Read one operation at a time, the reference's result at a pair (R, S) of rows is: the rows' sums of squares under a
  square root, clamped, dividing the rows; the inner product of the two normalised rows; the inner product of the two
  label rows, doubled, over the sum of the two label rows' sums and the small constant; the logistic spelt as
  1 / (1 + exp (-t)); the cross entropy, negated. Its last two operations sum these entries over all pairs and divide by
  the number of pairs. Each step below names the index an operation reads by its coordinates.
-/
import proofs.«145367_j7095285973555_1_alg».proof.Proof.Gen.ReferenceIdeal.Read
import proofs.«145367_j7095285973555_1_alg».proof.Proof.Loss

noncomputable section

open scoped BigOperators

namespace Cert.RefMean

open Cert.ReferenceIdeal Cert.ReferenceIdeal.Read Idealize.ShloMosaic Idealize.ShloMosaic.ValueIdx Cert.SoftLoss

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 x1 : (⟨S4096x1024, .f32⟩ : BufTy).Contents (Elt Ideal)) (x2 x3 : (⟨S4096x80, .f32⟩ : BufTy).Contents (Elt Ideal))

/-! ## The label rows' sums and inner product -/

theorem labSum2 (R : Fin 4096) : val_main_v2 (F := Ideal) x2 (ix1 R) = ∑ k : Fin 80, x2 (ix2 R k) := by
  rw [val_main_v2_apply, val_main_cst_apply]
  show Ideal.ofBits .f32 0x00000000#32 + _ = _
  rw [Ideal.ofBits_zero_f32, zero_add]
  exact Finset.sum_congr rfl fun k _ => congrArg x2 (by idx2)

theorem labSum4 (S : Fin 4096) : val_main_v4 (F := Ideal) x3 (ix1 S) = ∑ k : Fin 80, x3 (ix2 S k) := by
  rw [val_main_v4_apply, val_main_cst_0_apply]
  show Ideal.ofBits .f32 0x00000000#32 + _ = _
  rw [Ideal.ofBits_zero_f32, zero_add]
  exact Finset.sum_congr rfl fun k _ => congrArg x3 (by idx2)

theorem inter_at (R S : Fin 4096) :
    val_main_v1 (F := Ideal) x2 x3 (ix2 R S) = ∑ c : Fin 80, x2 (ix2 R c) * x3 (ix2 S c) := by
  rw [val_main_v1_apply]
  refine Finset.sum_congr rfl fun c _ => ?_
  rw [val_main_v0_apply]
  exact congrArg₂ (· * ·) (congrArg x2 (by idx2)) (congrArg x3 (by idx2))

/-- The overlap of label row `R` with companion label row `S`. -/
theorem soft_at (R S : Fin 4096) : val_main_v13 (F := Ideal) x2 x3 (ix2 R S) = soft (row x2 R) (row x3 S) := by
  have e6 : idx_main_v3 (idx_main_v6 (ix2 R S)) = ix1 R := by idx1
  have e7 : idx_main_v5 (idx_main_v7 (ix2 R S)) = ix1 S := by idx1
  rw [val_main_v13_apply, val_main_v10_apply, val_main_v12_apply, val_main_v8_apply, val_main_v9_apply, val_main_cst_1_apply,
    val_main_v11_apply, val_main_cst_2_apply, val_main_v6_apply, val_main_v3_apply, val_main_v7_apply, val_main_v5_apply,
    inter_at, e6, e7, labSum2, labSum4]
  rfl

/-! ## The clamped norms and the cosine similarity -/

theorem sq0_at (R : Fin 4096) :
    val_main_call0_v1 (F := Ideal) x0 (ix1 R) = ∑ k : Fin 1024, x0 (ix2 R k) * x0 (ix2 R k) := by
  rw [val_main_call0_v1_apply, val_main_call0_cst_apply]
  show Ideal.ofBits .f32 0x00000000#32 + _ = _
  rw [Ideal.ofBits_zero_f32, zero_add]
  refine Finset.sum_congr rfl fun k _ => ?_
  have e : idx_main_call0_v1 (ix1 R) k = ix2 R k := by idx2
  rw [e]
  rfl

theorem sq1_at (S : Fin 4096) :
    val_main_call1_v1 (F := Ideal) x1 (ix1 S) = ∑ k : Fin 1024, x1 (ix2 S k) * x1 (ix2 S k) := by
  rw [val_main_call1_v1_apply, val_main_call1_cst_apply]
  show Ideal.ofBits .f32 0x00000000#32 + _ = _
  rw [Ideal.ofBits_zero_f32, zero_add]
  refine Finset.sum_congr rfl fun k _ => ?_
  have e : idx_main_call1_v1 (ix1 S) k = ix2 S k := by idx2
  rw [e]
  rfl

theorem norm0_at (R : Fin 4096) (u : Fin 1) : val_main_v16 (F := Ideal) x0 (ix2 R u) = nrm (row x0 R) := by
  have e : idx_main_call0_v2 (ix2 R u) = ix1 R := by idx1
  rw [val_main_v16_apply, val_main_v14_apply, val_main_v15_apply, val_main_cst_3_apply, val_main_call0_v2_apply, e, sq0_at]
  rfl

theorem norm1_at (S : Fin 4096) (u : Fin 1) : val_main_v21 (F := Ideal) x1 (ix2 S u) = nrm (row x1 S) := by
  have e : idx_main_call1_v2 (ix2 S u) = ix1 S := by idx1
  rw [val_main_v21_apply, val_main_v19_apply, val_main_v20_apply, val_main_cst_4_apply, val_main_call1_v2_apply, e, sq1_at]
  rfl

theorem fn0_at (R : Fin 4096) (k : Fin 1024) :
    val_main_v18 (F := Ideal) x0 (ix2 R k) = Ideal.div (x0 (ix2 R k)) (nrm (row x0 R)) := by
  have e : idx_main_v17 (ix2 R k) = ix2 R (0 : Fin 1) := by idx2
  rw [val_main_v18_apply, val_main_v17_apply, e, norm0_at]
  rfl

theorem fn1_at (S : Fin 4096) (k : Fin 1024) :
    val_main_v23 (F := Ideal) x1 (ix2 S k) = Ideal.div (x1 (ix2 S k)) (nrm (row x1 S)) := by
  have e : idx_main_v22 (ix2 S k) = ix2 S (0 : Fin 1) := by idx2
  rw [val_main_v23_apply, val_main_v22_apply, e, norm1_at]
  rfl

/-- The cosine similarity of feature row `R` with companion feature row `S`. -/
theorem cos_at (R S : Fin 4096) : val_main_v25 (F := Ideal) x0 x1 (ix2 R S) = cosv (row x0 R) (row x1 S) := by
  rw [val_main_v25_apply]
  unfold cosv
  refine Finset.sum_congr rfl fun k _ => ?_
  have el : lidx_main_v25 (ix2 R S) k = ix2 R k := by idx2
  have er : idx_main_v24 (ridx_main_v25 (ix2 R S) k) = ix2 S k := by idx2
  rw [val_main_v24_apply, el, er, fn0_at, fn1_at]

/-! ## The entry and the mean -/

/-- The reference's negated cross entropy at the pair (R, S) is the loss entry: the logistic is spelt
    `1 / (1 + exp (-t))`, which is its definition on the extended reals. -/
theorem entry_at (R S : Fin 4096) : val_main_v47 (F := Ideal) x0 x1 x2 x3 (ix2 R S) = lossAt x0 x1 x2 x3 R S := by
  simp only [val_main_v47_apply, val_main_v46_apply, val_main_v37_apply, val_main_v45_apply, val_main_v36_apply,
    val_main_v44_apply, val_main_v35_apply, val_main_v43_apply, val_main_v41_apply, val_main_v39_apply, val_main_v33_apply,
    val_main_v31_apply, val_main_v29_apply, val_main_v28_apply, val_main_v27_apply, val_main_v26_apply, val_main_v30_apply,
    val_main_v32_apply, val_main_v34_apply, val_main_v38_apply, val_main_v40_apply, val_main_v42_apply, val_main_cst_5_apply,
    val_main_cst_6_apply, val_main_cst_7_apply, val_main_cst_8_apply, val_main_cst_9_apply, val_main_cst_10_apply,
    val_main_cst_11_apply, cos_at, soft_at]
  unfold lossAt bce
  simp only [Ideal.hostNegf_def, Ideal.negf_def, Ideal.addf_def, Ideal.subf_def, Ideal.mulf_def, Ideal.hostDivf_def,
    Ideal.hostUnary_log_def, Ideal.hostUnary_exp_def, Ideal.ofBits_def, Ideal.ofBits_one_f32, Ideal.logistic]

/-- The reference's result is the mean loss. -/
theorem mean_eq (i : S_.Idx) : val_main_v49 (F := Ideal) x0 x1 x2 x3 i = mean x0 x1 x2 x3 := by
  rw [val_main_v49_apply, val_main_v48_apply, val_main_cst_12_apply, val_main_cst_13_apply]
  unfold mean
  show Ideal.div (Ideal.ofBits .f32 0x00000000#32 + _) _ = _
  rw [Ideal.ofBits_zero_f32, zero_add, sum_idx2]
  refine congrArg (fun t => Ideal.div t cnt) ?_
  exact Finset.sum_congr rfl fun R _ => Finset.sum_congr rfl fun S _ => entry_at x0 x1 x2 x3 R S

end Cert.RefMean

end
-- ==== Proof.DotFacts.lean ====
/-
  Where the two matrix products of a grid point read their operands: the left operand at the result's row and the
  contracted position, the right operand at the contracted position and the result's column.
-/
import proofs.«145367_j7095285973555_1_alg».proof.Proof.Gen.KernelIdeal.Skeleton
import proofs.«145367_j7095285973555_1_alg».proof.Proof.Loss

noncomputable section

open scoped BigOperators

namespace Cert.TileValue

open Cert.KernelIdeal Cert.KernelIdeal.Gen Idealize.ShloMosaic Idealize.ShloMosaic.ValueIdx Cert.SoftLoss

/-! ## The two products' operand indices -/

theorem feat_l0 (i : S256x256.Idx) (q : dot_S256x1024_S1024x256_S256x256_1_0_0_1_n_n.contr.Idx) :
    (dot_S256x1024_S1024x256_S256x256_1_0_0_1_n_n.lhsIdx i q (0 : Fin 2)).val = (i (0 : Fin 2)).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem feat_l1 (i : S256x256.Idx) (q : dot_S256x1024_S1024x256_S256x256_1_0_0_1_n_n.contr.Idx) :
    (dot_S256x1024_S1024x256_S256x256_1_0_0_1_n_n.lhsIdx i q (1 : Fin 2)).val = (q ⟨0, by decide⟩).val :=
  dot_S256x1024_S1024x256_S256x256_1_0_0_1_n_n.lhsIdx_val_of_single rfl i q
theorem feat_r0 (i : S256x256.Idx) (q : dot_S256x1024_S1024x256_S256x256_1_0_0_1_n_n.contr.Idx) :
    (dot_S256x1024_S1024x256_S256x256_1_0_0_1_n_n.rhsIdx i q (0 : Fin 2)).val = (q ⟨0, by decide⟩).val :=
  dot_S256x1024_S1024x256_S256x256_1_0_0_1_n_n.rhsIdx_val_of_single rfl i q
theorem feat_r1 (i : S256x256.Idx) (q : dot_S256x1024_S1024x256_S256x256_1_0_0_1_n_n.contr.Idx) :
    (dot_S256x1024_S1024x256_S256x256_1_0_0_1_n_n.rhsIdx i q (1 : Fin 2)).val = (i (1 : Fin 2)).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

theorem lab_l0 (i : S256x256.Idx) (q : dot_S256x80_S80x256_S256x256_1_0_0_1_n_n.contr.Idx) :
    (dot_S256x80_S80x256_S256x256_1_0_0_1_n_n.lhsIdx i q (0 : Fin 2)).val = (i (0 : Fin 2)).val := by
  unfold DotDims.lhsIdx
  rw [dif_neg (show ¬(0 : Fin S256x80.rank) ∈ dot_S256x80_S80x256_S256x256_1_0_0_1_n_n.lhsBatch by decide), dif_pos (show (0 : Fin S256x80.rank) ∈ dot_S256x80_S80x256_S256x256_1_0_0_1_n_n.lhsNonContracting by decide)]
  rfl
theorem lab_l1 (i : S256x256.Idx) (q : dot_S256x80_S80x256_S256x256_1_0_0_1_n_n.contr.Idx) :
    (dot_S256x80_S80x256_S256x256_1_0_0_1_n_n.lhsIdx i q (1 : Fin 2)).val = (q ⟨0, by decide⟩).val :=
  dot_S256x80_S80x256_S256x256_1_0_0_1_n_n.lhsIdx_val_of_single rfl i q
theorem lab_r0 (i : S256x256.Idx) (q : dot_S256x80_S80x256_S256x256_1_0_0_1_n_n.contr.Idx) :
    (dot_S256x80_S80x256_S256x256_1_0_0_1_n_n.rhsIdx i q (0 : Fin 2)).val = (q ⟨0, by decide⟩).val :=
  dot_S256x80_S80x256_S256x256_1_0_0_1_n_n.rhsIdx_val_of_single rfl i q
theorem lab_r1 (i : S256x256.Idx) (q : dot_S256x80_S80x256_S256x256_1_0_0_1_n_n.contr.Idx) :
    (dot_S256x80_S80x256_S256x256_1_0_0_1_n_n.rhsIdx i q (1 : Fin 2)).val = (i (1 : Fin 2)).val := by
  unfold DotDims.rhsIdx
  rw [dif_neg (show ¬(1 : Fin S80x256.rank) ∈ dot_S256x80_S80x256_S256x256_1_0_0_1_n_n.rhsBatch by decide), dif_pos (show (1 : Fin S80x256.rank) ∈ dot_S256x80_S80x256_S256x256_1_0_0_1_n_n.rhsNonContracting by decide)]
  rfl

end Cert.TileValue

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Norms.lean ====
/-
  The clamped Euclidean norms of the 256 rows of a feature block, kept as a column: the row's sum of squares under a
  square root, not below the small constant.
-/
import proofs.«145367_j7095285973555_1_alg».proof.Proof.Gen.KernelIdeal.Skeleton
import proofs.«145367_j7095285973555_1_alg».proof.Proof.Loss
import proofs.«145367_j7095285973555_1_alg».proof.Proof.LibAxisFold
import proofs.«145367_j7095285973555_1_alg».proof.Proof.LibColumnCast
import Idealize.ShloMosaic.Lib.Pipeline.Value

noncomputable section

open scoped BigOperators

namespace Cert.TileValue

open Cert.KernelIdeal Cert.KernelIdeal.Gen Idealize.ShloMosaic Idealize.ShloMosaic.ValueIdx Cert.SoftLoss

/-! ## The clamped norms of a block's rows -/

/-- The clamped norms of the 256 rows of a block, as a column. -/
def normCol (x : Vec Ideal S256x1024 .f32) : FVec Ideal S256x1 .f32 :=
  maximumf (sqrt (shapeCast S256x1 (multiReduction .add [1] S256 (mulf x x) 0x00000000#32 reduces_S256x1024_S256 (.inl rfl) rfl) shapeCasts_S256_S256x1))
    (broadcast S256x1 (Scalar.ofBits .f32 0x322BCC77#32))

theorem normCol_at (x : Vec Ideal S256x1024 .f32) (r : Fin 256) (u : Fin 1) : normCol x (ix2 r u) = nrm (row x r) := by
  show max (Ideal.sqrt (shapeCast S256x1 (multiReduction (F := Ideal) .add [1] S256 (mulf x x) 0x00000000#32 reduces_S256x1024_S256 (.inl rfl) rfl) shapeCasts_S256_S256x1 (ix2 r u))) eps = _
  rw [Cert.LibColumnCast.shapeCast_a_a1_apply, Cert.LibAxisFold.laneSum_row]
  rfl

end Cert.TileValue

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Matrices.lean ====
/-
  The three 256 × 256 matrices a grid point forms from its four blocks, read at an entry: the cosine similarities of
  the feature rows (a product of the row-normalised blocks, the second transposed; a change of float format is the
  identity on the extended reals), twice the label rows' inner products, and the two label rows' sums added to the small
  constant.
-/
import proofs.«145367_j7095285973555_1_alg».proof.Proof.Gen.KernelIdeal.Skeleton
import proofs.«145367_j7095285973555_1_alg».proof.Proof.Loss
import proofs.«145367_j7095285973555_1_alg».proof.Proof.DotFacts
import proofs.«145367_j7095285973555_1_alg».proof.Proof.Norms
import proofs.«145367_j7095285973555_1_alg».proof.Proof.LibColBroadcast
import proofs.«145367_j7095285973555_1_alg».proof.Proof.LibMatmulAt
import proofs.«145367_j7095285973555_1_alg».proof.Proof.LibAxisFold
import proofs.«145367_j7095285973555_1_alg».proof.Proof.LibColumnCast
import Idealize.ShloMosaic.Lib.ValueLayout
import Idealize.ShloMosaic.Lib.Pipeline.Value

noncomputable section

open scoped BigOperators

namespace Cert.TileValue

open Cert.KernelIdeal Cert.KernelIdeal.Gen Idealize.ShloMosaic Idealize.ShloMosaic.ValueIdx Cert.SoftLoss

/-! ## The three matrices -/

/-- The similarity matrix of a point: entry (r, s) is the cosine similarity of row r of the first block with row s of
    the second. -/
theorem pay2_at (x0 x1 : Vec Ideal S256x1024 .f32) (r s : Fin 256) :
    k0_pay2 x0 x1 (ix2 r s) = cosv (row x0 r) (row x1 s) := by
  show matmul (F := Ideal) dot_S256x1024_S1024x256_S256x256_1_0_0_1_n_n none
      (truncf .bf16 (divf x0 (broadcastTo S256x1024 (normCol x0) broadcasts_S256x1_S256x1024)) bitsLt_bf16_f32)
      (transpose S1024x256 [1, 0] (truncf .bf16 (divf x1 (broadcastTo S256x1024 (normCol x1) broadcasts_S256x1_S256x1024)) bitsLt_bf16_f32) transposes_S256x1024_p1_0_S1024x256)
      (constant (F := Ideal) S256x256 .f32 0x00000000#32) (ix2 r s) = _
  rw [Idealize.ShloMosaic.MatmulAt.matmul_zero_ix2 dot_S256x1024_S1024x256_S256x256_1_0_0_1_n_n rfl rfl feat_l0 feat_l1 feat_r0 feat_r1]
  unfold cosv
  refine Finset.sum_congr rfl fun k _ => ?_
  rw [transpose_ix2_apply]
  show Ideal.div (x0 (ix2 r k)) (broadcastTo S256x1024 (normCol x0) broadcasts_S256x1_S256x1024 (ix2 r k))
      * Ideal.div (x1 (ix2 s k)) (broadcastTo S256x1024 (normCol x1) broadcasts_S256x1_S256x1024 (ix2 s k)) = _
  rw [Cert.LibColBroadcast.broadcastTo_a1_ab_apply, Cert.LibColBroadcast.broadcastTo_a1_ab_apply, normCol_at, normCol_at]

/-- Twice the inner products of the label rows. -/
theorem pay3_at (x2 x3 : Vec Ideal S256x80 .f32) (r s : Fin 256) :
    k0_pay3 x2 x3 (ix2 r s) = two * ∑ c : Fin 80, x2 (ix2 r c) * x3 (ix2 s c) := by
  show two * matmul (F := Ideal) dot_S256x80_S80x256_S256x256_1_0_0_1_n_n none (truncf .bf16 x2 bitsLt_bf16_f32)
      (transpose S80x256 [1, 0] (truncf .bf16 x3 bitsLt_bf16_f32) transposes_S256x80_p1_0_S80x256)
      (constant (F := Ideal) S256x256 .f32 0x00000000#32) (ix2 r s) = _
  rw [Idealize.ShloMosaic.MatmulAt.matmul_zero_ix2 dot_S256x80_S80x256_S256x256_1_0_0_1_n_n rfl rfl lab_l0 lab_l1 lab_r0 lab_r1]
  refine congrArg (two * ·) (Finset.sum_congr rfl fun c _ => ?_)
  rw [transpose_ix2_apply]
  rfl

/-- The sums of the two label rows' sums and the small constant. -/
theorem pay4_at (x2 x3 : Vec Ideal S256x80 .f32) (r s : Fin 256) :
    k0_pay4 x2 x3 (ix2 r s) = ((∑ c : Fin 80, x2 (ix2 r c)) + ∑ c : Fin 80, x3 (ix2 s c)) + eps := by
  show (broadcastTo S256x256 (shapeCast S256x1 (multiReduction (F := Ideal) .add [1] S256 x2 0x00000000#32 reduces_S256x80_S256 (.inl rfl) rfl) shapeCasts_S256_S256x1) broadcasts_S256x1_S256x256 (ix2 r s)
      + broadcastTo S256x256 (transpose S1x256 [1, 0] (shapeCast S256x1 (multiReduction (F := Ideal) .add [1] S256 x3 0x00000000#32 reduces_S256x80_S256 (.inl rfl) rfl) shapeCasts_S256_S256x1) transposes_S256x1_p1_0_S1x256) broadcasts_S1x256_S256x256 (ix2 r s))
      + eps = _
  rw [Cert.LibColBroadcast.broadcastTo_a1_ab_apply, broadcastTo_1b_ab_apply, transpose_ix2_apply,
    Cert.LibColumnCast.shapeCast_a_a1_apply, Cert.LibColumnCast.shapeCast_a_a1_apply,
    Cert.LibAxisFold.laneSum_row, Cert.LibAxisFold.laneSum_row]

end Cert.TileValue

end
-- ==== Proof.LibCoordMask.lean ====
/-
  Masks that single out one position of an array by its coordinates.

  A kernel builds such a mask from `iota`s: on each axis it compares the coordinate, as a 32-bit word, with a
  literal, and it conjoins the one-bit results. For coordinates and literals below 2^32 the comparison of the
  words is the comparison of the numbers, the conjunction of the bits is the bit of the conjunction, and a
  select on such a bit is the `if` on the proposition. So a select under the mask "coordinates are (p, q, r)"
  is `if` the coordinates are (p, q, r).
-/
import Idealize.ShloMosaic.PureOps
import Idealize.ShloMosaic.Lib.ValueIdx

noncomputable section

namespace Cert.Lib

open Idealize.ShloMosaic

/-- Two naturals below 2^32, compared for equality as 32-bit words, give the bit of their equality: the
    words of distinct such numbers are distinct, since a number below 2^32 is its word's value. -/
theorem cmpi_eq_ofNat (b p : Nat) (hb : b < 2 ^ 32) (hp : p < 2 ^ 32) :
    IntOp.cmpi .eq (BitVec.ofNat 32 b) (BitVec.ofNat 32 p) = BitVec.ofBool (decide (b = p)) := by
  unfold IntOp.cmpi
  congr 1
  by_cases h : b = p
  · subst h; simp
  · have hne : BitVec.ofNat 32 b ≠ BitVec.ofNat 32 p := by
      intro e
      have e' := congrArg BitVec.toNat e
      simp only [BitVec.toNat_ofNat] at e'
      rw [Nat.mod_eq_of_lt hb, Nat.mod_eq_of_lt hp] at e'
      exact h e'
    simp [h, hne]

/-- The bitwise conjunction of two bits is the bit of the conjunction. -/
theorem andi_ofBool (x y : Bool) : IntOp.andi (BitVec.ofBool x) (BitVec.ofBool y) = BitVec.ofBool (x && y) := by
  cases x <;> cases y <;> rfl

/-- A select on the bit of a decidable proposition is the `if` on the proposition. -/
theorem select_ofBool {α : Type} (P : Prop) [Decidable P] (a b : α) :
    Scalar.select (BitVec.ofBool (decide P)) a b = if P then a else b := by
  by_cases h : P
  · simp [h, Scalar.select]
  · simp [h, Scalar.select]

/-- A select under the mask "the three coordinates `b`, `c`, `e` are `p`, `q`, `r`", the mask built as the
    kernel builds it — three word comparisons conjoined left to right — is the `if` on that conjunction. -/
theorem select_point {α : Type} (b c e p q r : Nat) (hb : b < 2 ^ 32) (hc : c < 2 ^ 32) (he : e < 2 ^ 32)
    (hp : p < 2 ^ 32) (hq : q < 2 ^ 32) (hr : r < 2 ^ 32) (x y : α) :
    Scalar.select
        (IntOp.andi (IntOp.andi (IntOp.cmpi .eq (BitVec.ofNat 32 b) (BitVec.ofNat 32 p))
          (IntOp.cmpi .eq (BitVec.ofNat 32 c) (BitVec.ofNat 32 q)))
          (IntOp.cmpi .eq (BitVec.ofNat 32 e) (BitVec.ofNat 32 r))) x y
      = if b = p ∧ c = q ∧ e = r then x else y := by
  rw [cmpi_eq_ofNat b p hb hp, cmpi_eq_ofNat c q hc hq, cmpi_eq_ofNat e r he hr, andi_ofBool, andi_ofBool,
    ← Bool.decide_and, ← Bool.decide_and, select_ofBool]
  exact if_congr and_assoc rfl rfl

end Cert.Lib

end
-- ==== Proof.Total.lean ====
/-
  The total of a 256 × 256 matrix as the kernel takes it, and the mask that singles out a cell's corner.

  The matrix is viewed as [1, 256, 256] and summed over its two long axes into one number, which is then read out of a
  [1, 1, 1] view: whichever position is read, it is the sum of all 256 × 256 entries. The mask compares the row and the
  column number inside an 8 × 128 cell with zero, as 32-bit words, and conjoins the two bits.
-/
import proofs.«145367_j7095285973555_1_alg».proof.Proof.Gen.KernelIdeal.Skeleton
import proofs.«145367_j7095285973555_1_alg».proof.Proof.Loss
import proofs.«145367_j7095285973555_1_alg».proof.Proof.LibCoordMask
import Idealize.ShloMosaic.Lib.ValueLayout
import Idealize.ShloMosaic.Lib.Pipeline.Value

noncomputable section

open scoped BigOperators

namespace Cert.TileValue

open Cert.KernelIdeal Cert.KernelIdeal.Gen Idealize.ShloMosaic Idealize.ShloMosaic.ValueIdx Cert.SoftLoss

/-- A sum over the indices of a [1, 256, 256] array is the double sum over its two long coordinates. -/
theorem sum_unit3 {M : Type*} [AddCommMonoid M] (f : (⟨3, ![1, 256, 256]⟩ : Shape).Idx → M) :
    ∑ i, f i = ∑ r : Fin 256, ∑ s : Fin 256, f (ix3 (0 : Fin 1) r s) := by
  let e : Fin 256 × Fin 256 ≃ (⟨3, ![1, 256, 256]⟩ : Shape).Idx :=
    { toFun := fun p => ix3 (0 : Fin 1) p.1 p.2
      invFun := fun i => (i 1, i 2)
      left_inv := fun _ => rfl
      right_inv := fun i => funext fun a => by
        match a with
        | ⟨0, _⟩ => exact Fin.ext (by have h : (i 0).val < 1 := (i 0).isLt; show 0 = (i 0).val; omega)
        | ⟨1, _⟩ => rfl
        | ⟨2, _⟩ => rfl }
  rw [← Equiv.sum_comp e, Fintype.sum_prod_type]
  exact Finset.sum_congr rfl fun r _ => Finset.sum_congr rfl fun s _ => rfl

/-- A one-entry vector whose entry is `tot`, viewed as [1, 1, 1] and read at its one position, gives `tot`. -/
theorem extract_one {α : Type} (v : S1.Idx → α) (tot : α) (hv : ∀ j, v j = tot) :
    extractAt ![0, 0, 0] (shapeCast S1x1x1 v shapeCasts_S1_S1x1x1) inpos_S1x1x1_p0_0_0 = tot := hv _

/-- The total of a 256 × 256 matrix, taken the kernel's way. -/
theorem total_at (w : FVec Ideal S256x256 .f32) :
    extractAt ![0, 0, 0] (shapeCast S1x1x1 (multiReduction (F := Ideal) .add [1, 2] S1 (shapeCast S1x256x256 w shapeCasts_S256x256_S1x256x256) 0x00000000#32 reduces_S1x256x256_S1 (.inl rfl) rfl) shapeCasts_S1_S1x1x1) inpos_S1x1x1_p0_0_0
      = ∑ r : Fin 256, ∑ s : Fin 256, w (ix2 r s) := by
  refine (extract_one _ _ fun j => Ideal.multiReduction_add_total (shapeCast S1x256x256 w shapeCasts_S256x256_S1x256x256)
    0x00000000#32 reduces_S1x256x256_S1 (fun b => by match b with | ⟨0, _⟩ => rfl) (.inl rfl) rfl j).trans ?_
  rw [sum_unit3]
  exact Finset.sum_congr rfl fun r _ => Finset.sum_congr rfl fun s _ =>
    shapeCast_ab_1ab_apply w shapeCasts_S256x256_S1x256x256 (0 : Fin 1) r s

/-- A select under the mask "row 0 and column 0 of the cell" is the `if` on the two coordinates. -/
theorem corner_select {α : Type} (a : Fin 8) (b : Fin 128) (x y : α) :
    Scalar.select (IntOp.andi (IntOp.cmpi .eq (iota .tc S8x128 32 [0] iota_S8x128_d0_w32 (ix2 a b)) 0#32)
        (IntOp.cmpi .eq (iota .tc S8x128 32 [1] iota_S8x128_d1_w32 (ix2 a b)) 0#32)) x y
      = if a.val = 0 ∧ b.val = 0 then x else y := by
  rw [iota_single_apply, iota_single_apply]
  show Scalar.select (IntOp.andi (IntOp.cmpi .eq (BitVec.ofNat 32 a.val) (BitVec.ofNat 32 0))
        (IntOp.cmpi .eq (BitVec.ofNat 32 b.val) (BitVec.ofNat 32 0))) x y = _
  rw [Cert.Lib.cmpi_eq_ofNat a.val 0 (by have := a.isLt; omega) (by norm_num),
    Cert.Lib.cmpi_eq_ofNat b.val 0 (by have := b.isLt; omega) (by norm_num), Cert.Lib.andi_ofBool, ← Bool.decide_and,
    Cert.Lib.select_ofBool]

end Cert.TileValue

end
-- ==== Proof.Corner.lean ====
/-
  The cell a grid point stores, from its three matrices: at the corner the total over the 256 × 256 pairs of the
  negated cross entropy — zero minus a value is its negation and the word of one is one, so each entry is the cross
  entropy of the logistic of the similarity against the overlap — and zero elsewhere in the cell.
-/
import proofs.«145367_j7095285973555_1_alg».proof.Proof.Gen.KernelIdeal.Skeleton
import proofs.«145367_j7095285973555_1_alg».proof.Proof.Loss
import proofs.«145367_j7095285973555_1_alg».proof.Proof.Total

noncomputable section

open scoped BigOperators

namespace Cert.TileValue

open Cert.KernelIdeal Cert.KernelIdeal.Gen Idealize.ShloMosaic Idealize.ShloMosaic.ValueIdx Cert.SoftLoss

/-- A conjunction of one-bit words and a comparison of words, read at an index. -/
theorem andi_at {s : Shape} {w : Nat} (x y : IVec s w) (i : s.Idx) : andi x y i = IntOp.andi (x i) (y i) := rfl
theorem cmpi_at {s : Shape} {w : Nat} (p : CmpIPredicate) (x y : IVec s w) (i : s.Idx) :
    cmpi p x y i = IntOp.cmpi p (x i) (y i) := rfl

/-- The cell a point stores: the total of its 256 × 256 cross entropies at the corner, zero elsewhere. -/
theorem pay1_at (v23 v37 v39 : FVec Ideal S256x256 .f32) (a : Fin 8) (b : Fin 128) :
    k0_pay1 v23 v37 v39 (ix2 a b)
      = if a.val = 0 ∧ b.val = 0 then ∑ r : Fin 256, ∑ s : Fin 256, bce (v23 (ix2 r s)) (Ideal.div (v37 (ix2 r s)) (v39 (ix2 r s))) else 0 := by
  simp only [k0_pay1]
  rw [select_apply, andi_at, cmpi_at, cmpi_at]
  simp only [broadcast_apply]
  rw [corner_select, total_at]
  refine if_congr Iff.rfl (Finset.sum_congr rfl fun r _ => Finset.sum_congr rfl fun s _ => ?_) Ideal.ofBits_zero_f32
  show Ideal.ofBits .f32 0x00000000#32
      - (Ideal.div (v37 (ix2 r s)) (v39 (ix2 r s)) * Ideal.log (Ideal.logistic (Ideal.div (v23 (ix2 r s)) (Ideal.ofBits .f32 0x3F800000#32)) + eps)
        + (Ideal.ofBits .f32 0x3F800000#32 - Ideal.div (v37 (ix2 r s)) (v39 (ix2 r s)))
          * Ideal.log ((Ideal.ofBits .f32 0x3F800000#32 - Ideal.logistic (Ideal.div (v23 (ix2 r s)) (Ideal.ofBits .f32 0x3F800000#32))) + eps)) = _
  unfold bce
  rw [Ideal.ofBits_zero_f32, Ideal.ofBits_one_f32, zero_sub]

end Cert.TileValue

end
-- ==== Proof.Cell.lean ====
/-
  The cell a grid point stores, as a function of its four blocks.
-/
import proofs.«145367_j7095285973555_1_alg».proof.Proof.Gen.KernelIdeal.Skeleton
import proofs.«145367_j7095285973555_1_alg».proof.Proof.Loss
import proofs.«145367_j7095285973555_1_alg».proof.Proof.Matrices
import proofs.«145367_j7095285973555_1_alg».proof.Proof.Corner

noncomputable section

open scoped BigOperators

namespace Cert.TileValue

open Cert.KernelIdeal Cert.KernelIdeal.Gen Idealize.ShloMosaic Idealize.ShloMosaic.ValueIdx Cert.SoftLoss

/-- The cell a point stores, from its four blocks: at the corner, the total over the 256 × 256 pairs of the block rows of
    the cross entropy of their cosine similarity against their label overlap. -/
theorem cell_at (x0 x1 : Vec Ideal S256x1024 .f32) (x2 x3 : Vec Ideal S256x80 .f32) (a : Fin 8) (b : Fin 128) :
    k0_pay1 (k0_pay2 x0 x1) (k0_pay3 x2 x3) (k0_pay4 x2 x3) (ix2 a b)
      = if a.val = 0 ∧ b.val = 0 then
          ∑ r : Fin 256, ∑ s : Fin 256, bce (cosv (row x0 r) (row x1 s)) (soft (row x2 r) (row x3 s))
        else 0 := by
  rw [pay1_at]
  refine if_congr Iff.rfl (Finset.sum_congr rfl fun r _ => Finset.sum_congr rfl fun s _ => ?_) rfl
  rw [pay2_at, pay3_at, pay4_at]
  rfl

end Cert.TileValue

end
-- ==== Proof.Blocks.lean ====
/-
  From the points' cells to the whole array.

  The grid has 16 × 16 points; point t = (i, j) reads rows 256 i … 256 i + 255 of the features and labels and rows
  256 j … 256 j + 255 of the companions, and writes cell (i, j) — rows 8 i … 8 i + 7, columns 128 j … 128 j + 127 — of the
  128 × 2048 result. A block's coordinate is the block index times the block size plus the coordinate inside the block.
  The cells tile the result, so after the run the result array holds, at (8 i, 128 j), the sum of tile (i, j) of the loss
  entries and zero at every other position.
-/
import proofs.«145367_j7095285973555_1_alg».proof.Proof.Gen.KernelIdeal.Frame
import proofs.«145367_j7095285973555_1_alg».proof.Proof.Cell
import Idealize.ShloMosaic.Lib.Pipeline.Value

set_option maxRecDepth 16384

noncomputable section

open scoped BigOperators

namespace Cert.TileArray

open Cert.KernelIdeal Cert.KernelIdeal.Gen Idealize.ShloMosaic Idealize.ShloMosaic.TcCoe Idealize.SL.Sem
open Idealize.ShloMosaic.ValueIdx Cert.SoftLoss Cert.TileValue
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps over the grid: the features and labels move with the cell's row index, the companions with
    its column index, all at column block zero; point `t` is cell `(t / 16, t % 16)`. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_4.index t (0 : Fin 2) = t.val / 16 ∧ win0_4.index t (1 : Fin 2) = t.val % 16 :=
  (by decide +kernel : ∀ t : Fin grid0.N, _)

/-- The cell's row and column index at a point. -/
def tileI (t : Fin cfg0.N) : Fin 16 := ⟨win0_4.index t (0 : Fin 2), by
  have h := (idx_facts t).2.2.2.2.2.2.2.2.1
  have ht : t.val < 256 := lt_of_lt_of_eq t.isLt N_0
  omega⟩
def tileJ (t : Fin cfg0.N) : Fin 16 := ⟨win0_4.index t (1 : Fin 2), by
  have h := (idx_facts t).2.2.2.2.2.2.2.2.2
  omega⟩

/-- The four argument arrays on core `c`. -/
abbrev A0 (c : Dev nD) : S4096x1024.Idx → EReal := m ((c : Thread nD τ).loc main_arg0)
abbrev A1 (c : Dev nD) : S4096x1024.Idx → EReal := m ((c : Thread nD τ).loc main_arg1)
abbrev A2 (c : Dev nD) : S4096x80.Idx → EReal := m ((c : Thread nD τ).loc main_arg2)
abbrev A3 (c : Dev nD) : S4096x80.Idx → EReal := m ((c : Thread nD τ).loc main_arg3)

/-- The four blocks of a point. -/
def blk0 (c : Dev nD) (t : Fin cfg0.N) : Vec Ideal S256x1024 .f32 := iblk m c 0 t
def blk1 (c : Dev nD) (t : Fin cfg0.N) : Vec Ideal S256x1024 .f32 := iblk m c 1 t
def blk2 (c : Dev nD) (t : Fin cfg0.N) : Vec Ideal S256x80 .f32 := iblk m c 2 t
def blk3 (c : Dev nD) (t : Fin cfg0.N) : Vec Ideal S256x80 .f32 := iblk m c 3 t

/-- Row `r` of a point's feature block is row `r` of tile `i` of the features; likewise the other three blocks. -/
theorem blk0_row (c : Dev nD) (t : Fin cfg0.N) (r : Fin 256) : row (blk0 m c t) r = row (A0 m c) (tileRow (tileI t) r) := by
  funext k
  show V m c main_arg0 (((cfg0.win 0).blk t).view.emb (ix2 r k)) = m ((c : Thread nD τ).loc main_arg0) (ix2 (tileRow (tileI t) r) k)
  rw [V_main_arg0]
  obtain ⟨e0, e1, -⟩ := idx_facts t
  refine congrArg _ (funext fun a => Fin.ext ?_)
  match a with
  | ⟨0, _⟩ => show win0_0.index t (0 : Fin 2) * 256 + 1 * r.val = r.val + 256 * win0_4.index t (0 : Fin 2); omega
  | ⟨1, _⟩ => show win0_0.index t (1 : Fin 2) * 1024 + 1 * k.val = k.val; omega

theorem blk1_row (c : Dev nD) (t : Fin cfg0.N) (s : Fin 256) : row (blk1 m c t) s = row (A1 m c) (tileRow (tileJ t) s) := by
  funext k
  show V m c main_arg1 (((cfg0.win 1).blk t).view.emb (ix2 s k)) = m ((c : Thread nD τ).loc main_arg1) (ix2 (tileRow (tileJ t) s) k)
  rw [V_main_arg1]
  obtain ⟨-, -, e0, e1, -⟩ := idx_facts t
  refine congrArg _ (funext fun a => Fin.ext ?_)
  match a with
  | ⟨0, _⟩ => show win0_1.index t (0 : Fin 2) * 256 + 1 * s.val = s.val + 256 * win0_4.index t (1 : Fin 2); omega
  | ⟨1, _⟩ => show win0_1.index t (1 : Fin 2) * 1024 + 1 * k.val = k.val; omega

theorem blk2_row (c : Dev nD) (t : Fin cfg0.N) (r : Fin 256) : row (blk2 m c t) r = row (A2 m c) (tileRow (tileI t) r) := by
  funext k
  show V m c main_arg2 (((cfg0.win 2).blk t).view.emb (ix2 r k)) = m ((c : Thread nD τ).loc main_arg2) (ix2 (tileRow (tileI t) r) k)
  rw [V_main_arg2]
  obtain ⟨-, -, -, -, e0, e1, -⟩ := idx_facts t
  refine congrArg _ (funext fun a => Fin.ext ?_)
  match a with
  | ⟨0, _⟩ => show win0_2.index t (0 : Fin 2) * 256 + 1 * r.val = r.val + 256 * win0_4.index t (0 : Fin 2); omega
  | ⟨1, _⟩ => show win0_2.index t (1 : Fin 2) * 80 + 1 * k.val = k.val; omega

theorem blk3_row (c : Dev nD) (t : Fin cfg0.N) (s : Fin 256) : row (blk3 m c t) s = row (A3 m c) (tileRow (tileJ t) s) := by
  funext k
  show V m c main_arg3 (((cfg0.win 3).blk t).view.emb (ix2 s k)) = m ((c : Thread nD τ).loc main_arg3) (ix2 (tileRow (tileJ t) s) k)
  rw [V_main_arg3]
  obtain ⟨-, -, -, -, -, -, e0, e1, -⟩ := idx_facts t
  refine congrArg _ (funext fun a => Fin.ext ?_)
  match a with
  | ⟨0, _⟩ => show win0_3.index t (0 : Fin 2) * 256 + 1 * s.val = s.val + 256 * win0_4.index t (1 : Fin 2); omega
  | ⟨1, _⟩ => show win0_3.index t (1 : Fin 2) * 80 + 1 * k.val = k.val; omega

/-- The result array after the run: the tiles' sums of the loss entries, each at the corner of its cell. -/
def outArr (c : Dev nD) : S128x2048.Idx → EReal := fun i =>
  outAt (tile (lossAt (A0 m c) (A1 m c) (A2 m c) (A3 m c))) (i 0) (i 1)

/-- What point `t` writes back is cell `t` of that array. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero hz]
  simp only [View.ld_unit_zero (S := S256x1024) hz, View.ld_unit_zero (S := S256x80) hz]
  funext y
  obtain ⟨a, b, rfl⟩ : ∃ (a : Fin 8) (b : Fin 128), y = ix2 a b := ⟨y 0, y 1, eq_ix2 y⟩
  show k0_pay1 (k0_pay2 (blk0 m c t) (blk1 m c t)) (k0_pay3 (blk2 m c t) (blk3 m c t)) (k0_pay4 (blk2 m c t) (blk3 m c t)) (ix2 a b)
    = outAt (tile (lossAt (A0 m c) (A1 m c) (A2 m c) (A3 m c)))
        ((((cfg0.win 4).blk t).view.emb (ix2 a b)) 0) ((((cfg0.win 4).blk t).view.emb (ix2 a b)) 1)
  refine (cell_at (blk0 m c t) (blk1 m c t) (blk2 m c t) (blk3 m c t) a b).trans ?_
  refine Eq.trans ?_ (outAt_cell _ (tileI t) (tileJ t) a b _ _ rfl rfl).symm
  refine if_congr Iff.rfl ?_ rfl
  unfold tile lossAt
  refine Finset.sum_congr rfl fun r _ => Finset.sum_congr rfl fun s _ => ?_
  rw [blk0_row, blk1_row, blk2_row, blk3_row]

/-- An index of the result is in point `t`'s cell iff each coordinate is in the cell's range on its axis. -/
theorem mem_blk (t : Fin cfg0.N) (i : S128x2048.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0).slice (win0_4.rect t)).set ↔ _
  rw [View.set_slice_whole, Rect.mem_set_unit]
  exact Iff.rfl

/-- Every position of the result is in some point's cell: position (A, B) in that of point `16 (A / 8) + B / 128`. -/
theorem cover (i : S128x2048.Idx) : ∃ t : Fin cfg0.N, (cfg0.win 4).flush t = true ∧ i ∈ ((cfg0.win 4).blk t).view.set := by
  have hi0 : (i 0).val < 128 := (i 0).isLt
  have hi1 : (i 1).val < 2048 := (i 1).isLt
  have hN : (i 0).val / 8 * 16 + (i 1).val / 128 < cfg0.N := by rw [show cfg0.N = 256 from N_0]; omega
  obtain ⟨-, -, -, -, -, -, -, -, q0, q1⟩ := idx_facts ⟨(i 0).val / 8 * 16 + (i 1).val / 128, hN⟩
  refine ⟨⟨(i 0).val / 8 * 16 + (i 1).val / 128, hN⟩, flush0_4 _, ?_⟩
  rw [mem_blk]
  intro a
  match a with
  | ⟨0, _⟩ =>
    show win0_4.index ⟨(i 0).val / 8 * 16 + (i 1).val / 128, hN⟩ (0 : Fin 2) * 8 ≤ (i 0).val ∧ (i 0).val < win0_4.index ⟨(i 0).val / 8 * 16 + (i 1).val / 128, hN⟩ (0 : Fin 2) * 8 + 8
    rw [q0]
    show ((i 0).val / 8 * 16 + (i 1).val / 128) / 16 * 8 ≤ (i 0).val ∧ (i 0).val < ((i 0).val / 8 * 16 + (i 1).val / 128) / 16 * 8 + 8
    omega
  | ⟨1, _⟩ =>
    show win0_4.index ⟨(i 0).val / 8 * 16 + (i 1).val / 128, hN⟩ (1 : Fin 2) * 128 ≤ (i 1).val ∧ (i 1).val < win0_4.index ⟨(i 0).val / 8 * 16 + (i 1).val / 128, hN⟩ (1 : Fin 2) * 128 + 128
    rw [q1]
    show ((i 0).val / 8 * 16 + (i 1).val / 128) % 16 * 128 ≤ (i 1).val ∧ (i 1).val < ((i 0).val / 8 * 16 + (i 1).val / 128) % 16 * 128 + 128
    omega

/-- The result array after the run. -/
theorem final (c : Dev nD) : (dats m 0 c).arrAt 4 cfg0.N = outArr m c :=
  (dats m 0 c).arrAt_eq_of_cover 4 (outArr m c) (fun t _ => flushed_eq m c t) cover

end Cert.TileArray

end
-- ==== Proof.KernelRun.lean ====
/-
  The kernel's program computes the mean loss.

  After the grid, the program sums the 128 × 2048 result array and divides by the number of pairs. That array holds the
  256 tiles' sums, each at the corner of its cell, and zero elsewhere, so its sum is the sum of the tiles' sums, which is
  the sum of the loss entries over all 4096 × 4096 pairs: the sum is regrouped, nothing else.
-/
import proofs.«145367_j7095285973555_1_alg».proof.Proof.Blocks
import Idealize.ShloMosaic.Lib.StableHlo.Run

set_option maxRecDepth 16384

noncomputable section

open scoped BigOperators

namespace Cert.KernelMean

open Cert.KernelIdeal Cert.KernelIdeal.Gen Idealize.ShloMosaic Idealize.ShloMosaic.TcCoe Idealize.SL.Sem
open Idealize.ShloMosaic.StableHlo Idealize.ShloMosaic.ValueIdx Cert.SoftLoss Cert.TileArray

variable (m : (ℓ : Loc nD τ sig) → Buf (Elt Ideal) ℓ) (ρ : Dev nD → PrngReg)

/-- The sum of the result array is the sum of the loss entries over all pairs. -/
theorem sum_outArr (c : Dev nD) :
    ∑ j : S128x2048.Idx, outArr m c j = ∑ R : Fin 4096, ∑ S : Fin 4096, lossAt (A0 m c) (A1 m c) (A2 m c) (A3 m c) R S := by
  rw [sum_idx2]
  show ∑ A : Fin 128, ∑ B : Fin 2048, outAt (tile (lossAt (A0 m c) (A1 m c) (A2 m c) (A3 m c))) A B = _
  rw [sum_outAt, sum_tile]

/-- The program's result: the host's sum of the result array, over the number of pairs, is the mean loss. -/
theorem result_eq (c : Dev nD) :
    Pipeline.afterTail₀ cfgs (dats m) 0 (V0 m) [hostOps1] c main_v2 = fun _ => mean (A0 m c) (A1 m c) (A2 m c) (A3 m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0) = outArr m c :=
    (Pipeline.withArrays_arr spec0 launch0.win.arr_inj c _ _ 4).trans (final m c)
  rw [e]
  funext i
  have hsum : Host.reduceAdd (F := Ideal) (outArr m c) (constant S_ .f32 0x00000000#32) reducesTo_S128x2048_S_d0_1 h_S_ i
      = ∑ R : Fin 4096, ∑ S : Fin 4096, lossAt (A0 m c) (A1 m c) (A2 m c) (A3 m c) R S := by
    simp only [Host.reduceAdd, Ideal.hostReduceAdd_def]
    rw [Ideal.hostReduceAdd_total reducesTo_S128x2048_S_d0_1 (fun b => b.elim0), sum_outArr]
    show Ideal.ofBits .f32 0x00000000#32 + _ = _
    rw [Ideal.ofBits_zero_f32, zero_add]
  show Ideal.div (Host.reduceAdd (F := Ideal) (outArr m c) (constant S_ .f32 0x00000000#32) reducesTo_S128x2048_S_d0_1 h_S_ i) cnt = _
  rw [hsum]
  rfl

/-- Every weakly fair execution of the kernel's program ends with its result at the mean loss of the argument arrays and
    the argument arrays unchanged. -/
theorem run : θ_run defs (onTc (τ := τ) (main (F := Ideal))) ⟨m, fun _ => 0, ρ⟩ fun r => ∀ c : Dev nD,
      r.2.mem ((c.tc : Thread nD τ).loc main_v2) = (fun _ => mean (A0 m c) (A1 m c) (A2 m c) (A3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelMean

end
-- ==== Proof.lean ====
/-
  The kernel and its reference compute one number: the mean, over all 4096 × 4096 pairs of a feature row with a
  companion feature row, of the cross entropy of the logistic of the rows' cosine similarity against the Dice-style
  overlap of the two rows' labels.

  The reference forms the 4096 × 4096 matrix of entries and takes its mean. The kernel works tile by tile: each of the
  16 × 16 grid points forms the 256 × 256 entries of its tile, sums them, and stores the sum at the corner of an 8 × 128
  cell of a 128 × 2048 array that is zero elsewhere; the program then sums that array and divides by the number of pairs.
  On the extended reals every operation of the two programs is the same exact function (a change of float format is the
  identity, the logistic is 1 / (1 + exp (-t)) by definition, zero minus a value is its negation), and the two totals
  differ only in how one sum is grouped, which commutativity and associativity of addition settle: no entry needs to be
  finite, so the precondition is not used for the value. The three frames are the generated ones; the ideal pass
  rewrote nothing, so there is nothing to preserve.
-/
import proofs.«145367_j7095285973555_1_alg».proof.Defs
import proofs.«145367_j7095285973555_1_alg».proof.Proof.Gen.Kernel
import proofs.«145367_j7095285973555_1_alg».proof.Proof.Gen.Kernel.Skeleton
import proofs.«145367_j7095285973555_1_alg».proof.Proof.Gen.Kernel.Launch
import proofs.«145367_j7095285973555_1_alg».proof.Proof.Gen.Kernel.Points
import proofs.«145367_j7095285973555_1_alg».proof.Proof.Gen.Kernel.Frame
import proofs.«145367_j7095285973555_1_alg».proof.Proof.Gen.KernelIdeal
import proofs.«145367_j7095285973555_1_alg».proof.Proof.Gen.KernelIdeal.Skeleton
import proofs.«145367_j7095285973555_1_alg».proof.Proof.Gen.KernelIdeal.Launch
import proofs.«145367_j7095285973555_1_alg».proof.Proof.Gen.KernelIdeal.Points
import proofs.«145367_j7095285973555_1_alg».proof.Proof.Gen.KernelIdeal.Frame
import proofs.«145367_j7095285973555_1_alg».proof.Proof.Gen.ReferenceIdeal
import proofs.«145367_j7095285973555_1_alg».proof.Proof.Gen.Pre_finite_inputs
import proofs.«145367_j7095285973555_1_alg».proof.Proof.Gen.ReferenceIdeal.Run
import proofs.«145367_j7095285973555_1_alg».proof.Proof.Gen.ReferenceIdeal.Read
import proofs.«145367_j7095285973555_1_alg».proof.Proof.RefMean
import proofs.«145367_j7095285973555_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the mean loss of the argument arrays. -/
theorem algebraic : Cert.algebraic_KernelIdeal_ReferenceIdeal := by
  intro m ρ m' ρ' _ hagree
  refine ⟨fun c _ => Cert.SoftLoss.mean (Cert.TileArray.A0 m c) (Cert.TileArray.A1 m c) (Cert.TileArray.A2 m c) (Cert.TileArray.A3 m c),
    Cert.KernelMean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2]
  funext i
  exact Cert.RefMean.mean_eq _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
